-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : IVec S4096x8192 32) (main_arg2 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4096x8192 : Shape := ⟨2, ![4096, 8192]⟩
abbrev S4096 : Shape := ⟨1, ![4096]⟩
abbrev S4096x1 : Shape := ⟨2, ![4096, 1]⟩
abbrev S512x2048 : Shape := ⟨2, ![512, 2048]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096x1, .f32⟩
  | .hbm, ⟨4, _⟩ => ⟨S4096x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x1, .f32⟩
  | .local _ .vmem, ⟨5, _⟩ => ⟨S512x1, .f32⟩
  | .local _ .vmem, ⟨6, _⟩ => ⟨S512x2048, .f32⟩
  | .local _ .vmem, ⟨7, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S4096x1 : S4096.ShapeCasts S4096x1
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .f32 = 32 ∨ (Rect.block (s := S4096x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x8192.size a
  hwx0_1 : ∀ i : grid0.Coords, EltTy.bits .i32 = 32 ∨ (Rect.block (s := S4096x8192) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .f32 = 32 ∨ (Rect.block (s := S4096x8192) S512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096 : Shape := ⟨1, ![4096]⟩
abbrev S4096x1 : Shape := ⟨2, ![4096, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .i32⟩
  | .hbm, ⟨12, _⟩ => ⟨S4096x8192, .i32⟩
  | .hbm, ⟨13, _⟩ => ⟨S4096x8192, .i1⟩
  | .hbm, ⟨14, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)

variable [Facts₀]

class Facts : Prop extends Facts₀ where

variable [Facts]
-- ==== Proof.KernelArray.lean ====
/-
  The kernel's result array as ONE function of the argument arrays.

  The grid has 8 × 4 points; point (p, q) takes block (p, q) of the predictions and of the labels (512 rows by 2048
  columns each), block p of the weight column (512 rows), and writes block (p, q) of the result.  Inside a block the
  body works entry by entry: result entry (r, s) reads the prediction and the label at (r, s) and the weight of row r.
  So entry (R, S) of the result array depends on the prediction and the label at (R, S) and on the weight of row R
  alone, by ONE formula (`loss`), and the 32 blocks tile the whole 4096 × 8192 array: the point that covers (R, S)
  is (R / 512, S / 2048).  The weight column the region finds is the length-4096 weight vector recast as [4096, 1].
-/
import proofs.«100484_j70128226009669_2_alg».proof.Proof.Gen.KernelIdeal.Value
import Idealize.ShloMosaic.Lib.Pipeline.Value
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Cert.KernelIdeal.Value

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The entry of the weight column that result entry `i` reads: row `i 0`, column 0. -/
abbrev rowOf (i : S4096x8192.Idx) : S4096x1.Idx := fun a => match a with
  | ⟨0, _⟩ => ⟨(i 0).val, (i 0).isLt⟩
  | ⟨1, _⟩ => ⟨0, Nat.one_pos⟩

/-- The weighted loss entry by entry, in the body's own operations: zero minus the selection, by "label = 0", between
    log1p (0 − p) and w · log p, where p is the prediction at the entry and w the weight of the entry's row. -/
abbrev loss (pred : S4096x8192.Idx → Elt F .f32) (lab : S4096x8192.Idx → Elt F .i32) (wcol : S4096x1.Idx → Elt F .f32) :
    S4096x8192.Idx → Elt F .f32 := fun i =>
  FloatOps.subf (Scalar.ofBits .f32 0x00000000#32)
    (Scalar.select (IntOp.cmpi .eq (lab i) 0#32)
      (FloatOps.log1p (FloatOps.subf (Scalar.ofBits .f32 0x00000000#32) (pred i)))
      (FloatOps.mulf (wcol (rowOf i)) (FloatOps.log (pred i))))

/-- The four index maps over the 32 grid points: predictions, labels and result move together, the weight column
    follows the result's row block and stays at column block 0, and the result's block indices stay in 8 × 4. -/
theorem idx_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = 0
    ∧ win0_3.index t (0 : Fin 2) ≤ 7
    ∧ win0_3.index t (1 : Fin 2) ≤ 3 :=
  (by decide +kernel : ∀ t : Fin grid0.N, _)

/-- Every block (p, q) of the 8 × 4 tiling is some grid point's. -/
theorem idx_onto : ∀ (p : Fin 8) (q : Fin 4), ∃ t : Fin cfg0.N, win0_3.index t = ![p.val, q.val] :=
  (by decide +kernel : ∀ (p : Fin 8) (q : Fin 4), ∃ t : Fin grid0.N, win0_3.index t = ![p.val, q.val])

/-- What point `t` writes back is block `t` of `loss` of the arrays as the region finds them. -/
theorem flushed_eq (c : Dev nD) (t : Fin cfg0.N) :
    (dats m 0 c).flushed 3 t
      = ((cfg0.win 3).blk t).view.read (Elt F) (loss (V m c main_arg0) (V m c main_arg1) (V m c main_v0)) := by
  show (cfg0.win 3).cut (grid0.coords t) ((dats m 0 c).after 3 t) = _
  rw [after0_3]
  unfold out0_3
  simp only [View.ld_unit_zero (S := S512x2048) hz, View.ld_unit_zero (S := S512x1) hz]
  obtain ⟨e0, e1, e2, e3, e4, e5, -, -⟩ := idx_facts t
  funext j
  refine (canon3_eq (iblk m c 1 t) (iblk m c 0 t) (iblk m c 2 t) j).trans ?_
  have hj0 : (j 0).val < 512 := (j 0).isLt
  have hj1 : (j 1).val < 2048 := (j 1).isLt
  show FloatOps.subf (Scalar.ofBits .f32 0x00000000#32)
      (Scalar.select (IntOp.cmpi .eq (V m c main_arg1 (((cfg0.win 1).blk t).view.emb (ix3_0 j))) 0#32)
        (FloatOps.log1p (FloatOps.subf (Scalar.ofBits .f32 0x00000000#32) (V m c main_arg0 (((cfg0.win 0).blk t).view.emb (ix3_1 j)))))
        (FloatOps.mulf (V m c main_v0 (((cfg0.win 2).blk t).view.emb (ix3_2 j)))
          (FloatOps.log (V m c main_arg0 (((cfg0.win 0).blk t).view.emb (ix3_3 j))))))
    = FloatOps.subf (Scalar.ofBits .f32 0x00000000#32)
      (Scalar.select (IntOp.cmpi .eq (V m c main_arg1 (((cfg0.win 3).blk t).view.emb j)) 0#32)
        (FloatOps.log1p (FloatOps.subf (Scalar.ofBits .f32 0x00000000#32) (V m c main_arg0 (((cfg0.win 3).blk t).view.emb j))))
        (FloatOps.mulf (V m c main_v0 (rowOf (((cfg0.win 3).blk t).view.emb j)))
          (FloatOps.log (V m c main_arg0 (((cfg0.win 3).blk t).view.emb j)))))
  have hlab : ((cfg0.win 1).blk t).view.emb (ix3_0 j) = ((cfg0.win 3).blk t).view.emb j := by
    funext a; apply Fin.ext
    match a with
    | ⟨0, _⟩ => show win0_1.index t (0 : Fin 2) * 512 + 1 * (j 0).val = win0_3.index t (0 : Fin 2) * 512 + 1 * (j 0).val; omega
    | ⟨1, _⟩ => show win0_1.index t (1 : Fin 2) * 2048 + 1 * (j 1).val = win0_3.index t (1 : Fin 2) * 2048 + 1 * (j 1).val; omega
  have hpred : ((cfg0.win 0).blk t).view.emb (ix3_1 j) = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * (j 1).val = win0_3.index t (1 : Fin 2) * 2048 + 1 * (j 1).val; omega
  have hw : ((cfg0.win 2).blk t).view.emb (ix3_2 j) = rowOf (((cfg0.win 3).blk t).view.emb j) := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 1 + 1 * 0 = 0; omega
  rw [hlab, hpred, hw]

/-- An index of the result array is in point `t`'s block iff each coordinate is in the block's range on its axis. -/
theorem mem_blk (t : Fin cfg0.N) (i : S4096x8192.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v1).slice (win0_3.rect t)).set ↔ _
  rw [View.set_slice_whole, Rect.mem_set_unit]
  exact Iff.rfl

/-- The blocks tile the array: entry (R, S) is in the block of the point with block indices (R / 512, S / 2048),
    and every point writes its block back. -/
theorem covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the run is `loss` of the arrays as the region finds them. -/
theorem final (c : Dev nD) :
    (dats m 0 c).arrAt 3 cfg0.N = loss (V m c main_arg0) (V m c main_arg1) (V m c main_v0) :=
  (dats m 0 c).arrAt_eq_of_cover 3 (loss (V m c main_arg0) (V m c main_arg1) (V m c main_v0))
    (fun t _ => flushed_eq m c t) covered

/-- The weight column the region finds: the weight vector recast from [4096] to [4096, 1] before the region. -/
theorem V_weight (c : Dev nD) :
    (V m c main_v0 : S4096x1.Idx → Elt F .f32)
      = shapeCast S4096x1 (m ((c : Thread nD τ).loc main_arg2)) shapeCasts_S4096_S4096x1 := by
  dsimp only [Gen.V, Gen.hostOps0]
  after_results
  rfl

/-- The kernel's run, read: the result array at `loss` of the argument arrays (the weight recast as a column), the
    arguments unchanged. -/
theorem run : θ_run defs (onTc (τ := τ) (main (F := F))) ⟨m, fun _ => 0, ρ⟩ fun r => ∀ c : Dev nD,
      r.2.mem ((c : Thread nD τ).loc main_v1)
        = loss (m ((c : Thread nD τ).loc main_arg0)) (m ((c : Thread nD τ).loc main_arg1))
            (shapeCast S4096x1 (m ((c : Thread nD τ).loc main_arg2)) shapeCasts_S4096_S4096x1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [V_main_arg0, V_main_arg1, V_weight])), (h c).2⟩)
    (run_blocks m ρ)

end Cert.KernelIdeal.Whole

end
-- ==== Proof.LossLaw.lean ====
/-
  The one law that joins the two spellings of the weighted loss, on the extended reals.

  One program negates last: 0 − (if label = 0 then log1p (0 − p) else w · log p).  The other negates each branch
  first and then selects: if label = 0 then −log1p (−p) else −(w · log p).  On the extended reals 0 − x is −x for
  every x, infinite or not, and a function applied to a selection is the selection of its values; the logarithms are
  the same two functions on both sides.  No finiteness is used.
-/
import Idealize.ShloMosaic.PureOps.Ideal
import Idealize.ShloMosaic.PureOps.Ideal.Laws
import Idealize.ShloMosaic.Lib.ValueIdx

noncomputable section

namespace Cert.LossLaw

open Idealize.ShloMosaic

/-- Zero minus an extended real is its negative. -/
theorem zero_sub_ereal (x : EReal) : (0 : EReal) - x = -x := by
  rw [sub_eq_add_neg, zero_add]

/-- A function applied to a selection is the selection of the function's values. -/
theorem apply_select {α β : Type} (f : α → β) (c : BitVec 1) (a b : α) :
    f (Scalar.select c a b) = Scalar.select c (f a) (f b) := by
  unfold Scalar.select
  split <;> rfl

/-- One entry of the loss: negating after the selection (as zero minus) is selecting between the negated branches. -/
theorem entry (c : BitVec 1) (p w : Ideal .f32) :
    FloatOps.subf (Scalar.ofBits .f32 0x00000000#32)
        (Scalar.select c (FloatOps.log1p (FloatOps.subf (Scalar.ofBits .f32 0x00000000#32) p))
          (FloatOps.mulf w (FloatOps.log p)))
      = Scalar.select c (FloatOps.hostNegf (FloatOps.hostUnary .log1p (FloatOps.hostNegf p)))
          (FloatOps.hostNegf (FloatOps.mulf w (FloatOps.hostUnary .log p))) := by
  have h0 : (Scalar.ofBits .f32 0x00000000#32 : Ideal .f32) = (0 : EReal) := Ideal.ofBits_zero_f32
  rw [h0]
  simp only [Ideal.subf_def, Ideal.hostNegf_def, Ideal.negf_def, Ideal.hostUnary_log1p_def, Ideal.hostUnary_log_def,
    Ideal.log1p_def, Ideal.log_def, Ideal.mulf_def, zero_sub_ereal]
  exact apply_select (fun x : EReal => -x) c _ _

end Cert.LossLaw

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibColForms.lean ====
/-
  A length-`n` vector made into a column [n, 1] in two ways — by a reshape, or by a broadcast that places the
  vector's axis on axis 0 of the column — is the same column: entry (r, 0) of either is the vector's entry r.
-/
import Idealize.ShloMosaic.Lib.Pipeline.Value
import Idealize.ShloMosaic.Lib.ValueIdx
import proofs.«100484_j70128226009669_2_alg».proof.Proof.LibKeepdims

noncomputable section

namespace Cert.LibColForms

open Idealize.ShloMosaic Idealize.ShloMosaic.ValueIdx

variable {α : Type} {n : ℕ}

/-- The column broadcast of a vector read at (r, 0) is the vector's entry r. -/
theorem broadcastInDim_col_apply (x : (⟨1, ![n]⟩ : Shape).Idx → α) (dims : Fin 1 → Fin 2) (hd : dims 0 = 0)
    (hb : (⟨1, ![n]⟩ : Shape).BroadcastsInDim ⟨2, ![n, 1]⟩ dims) (r : Fin n) :
    broadcastInDim ⟨2, ![n, 1]⟩ dims hb x (ix2 r (0 : Fin 1)) = x (ix1 r) :=
  broadcastInDim_apply dims hb x (ix2 r (0 : Fin 1)) (ix1 r) (fun a => by
    match a with
    | ⟨0, _⟩ =>
      show r.val = if n = 1 then 0 else ((ix2 r (0 : Fin 1)) (dims 0)).val
      rw [hd]
      show r.val = if n = 1 then 0 else r.val
      have := r.isLt
      split <;> omega)

/-- The reshape of a vector to a column is its column broadcast. -/
theorem shapeCast_col_eq_broadcastInDim (x : (⟨1, ![n]⟩ : Shape).Idx → α)
    (h : (⟨1, ![n]⟩ : Shape).ShapeCasts ⟨2, ![n, 1]⟩) (dims : Fin 1 → Fin 2) (hd : dims 0 = 0)
    (hb : (⟨1, ![n]⟩ : Shape).BroadcastsInDim ⟨2, ![n, 1]⟩ dims) :
    shapeCast ⟨2, ![n, 1]⟩ x h = broadcastInDim ⟨2, ![n, 1]⟩ dims hb x := by
  funext j
  obtain ⟨r, z, rfl⟩ : ∃ (r : Fin n) (z : Fin 1), j = ix2 r z := ⟨j 0, j 1, eq_ix2 j⟩
  obtain rfl : z = 0 := Subsingleton.elim _ _
  rw [Cert.LibKeepdims.shapeCast_col_apply, broadcastInDim_col_apply x dims hd hb r]

end Cert.LibColForms

end
-- ==== Proof.Bridge.lean ====
/-
  The reference's result is the kernel's `loss` of the same arrays.

  Entry (R, S) of the reference reads, through its twelve operations: the label at (R, S) compared with 0; the
  prediction at (R, S), negated, through log1p, negated again; and the weight vector broadcast to a column [4096, 1]
  and then along the rows, so the weight of row R, times the logarithm of the prediction, negated; and it selects
  between the two by the comparison.  The kernel's column is the weight vector recast as [4096, 1], which is the
  same column as the broadcast one.  With the column in one form on both sides, each entry is the two sides of the
  law of the loss: negating after the selection against selecting between the negated branches.
-/
import proofs.«100484_j70128226009669_2_alg».proof.Proof.Gen.ReferenceIdeal.Read
import proofs.«100484_j70128226009669_2_alg».proof.Proof.KernelArray
import proofs.«100484_j70128226009669_2_alg».proof.Proof.LossLaw
import proofs.«100484_j70128226009669_2_alg».proof.Proof.LibColForms

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.Read

/-- The column entry the reference's row broadcast reads at (R, S) is the one the kernel's formula names: (R, 0). -/
theorem row_index (i : S4096x8192.Idx) : idx_main_v5 i = Cert.KernelIdeal.Whole.rowOf i :=
  funext fun a => Fin.ext (by match a with | ⟨0, _⟩ => rfl | ⟨1, _⟩ => rfl)

/-- The reference's last stage, as a function of the three argument arrays, is `loss` of the predictions, the labels
    and the weight vector recast as a column. -/
theorem ref_eq_loss (x0 : (⟨S4096x8192, .f32⟩ : BufTy).Contents (Elt Ideal))
    (x1 : (⟨S4096x8192, .i32⟩ : BufTy).Contents (Elt Ideal)) (x2 : (⟨S4096, .f32⟩ : BufTy).Contents (Elt Ideal))
    (h : S4096.ShapeCasts S4096x1) :
    val_main_v10 (F := Ideal) x0 x1 x2
      = Cert.KernelIdeal.Whole.loss (F := Ideal) x0 x1 (shapeCast S4096x1 x2 h) := by
  have hcol : shapeCast S4096x1 x2 h = val_main_v3 (F := Ideal) x2 :=
    Cert.LibColForms.shapeCast_col_eq_broadcastInDim x2 h ![0] rfl bcast_S4096_S4096x1_0
  rw [hcol]
  funext i
  rw [val_main_v10_apply, val_main_v9_apply, val_main_v8_apply, val_main_c_apply, val_main_v2_apply,
    val_main_v1_apply, val_main_v0_apply, val_main_v7_apply, val_main_v6_apply, val_main_v5_apply,
    val_main_v4_apply, row_index]
  exact (Cert.LossLaw.entry _ _ _).symm

end Cert.Bridge

end
-- ==== Proof.lean ====
/-
  The weighted binary cross-entropy loss, entry by entry, computed two ways and equal on the extended reals.

  Inputs: predictions p [4096, 8192], integer labels [4096, 8192], one weight per row w [4096].  Result entry (R, S):
  −log1p(−p) where the label is 0, and −(w_R · log p) elsewhere, p the prediction at (R, S).

  The kernel tiles the arrays into 8 × 4 blocks of 512 × 2048 entries; on each block it forms the selection between
  log1p(0 − p) and w · log p and subtracts it from zero.  So its result array is one formula of the argument arrays,
  entry by entry (KernelArray.lean: what each grid point writes back, and that the 32 blocks tile the array).  The
  reference negates each branch and then selects; read one operation at a time, its result is the same formula
  (Bridge.lean), by the one law that zero minus a selection is the selection of the negatives (LossLaw.lean).  The law
  holds for every extended real, so the finiteness of the inputs is never used.

  The three frames: the two kernels' runs terminate without a fault and leave the arguments as they were (the
  generated frame runs); the reference's frame is its run with the result dropped.  The idealized kernel is the
  kernel's own text read over the extended reals — no operation was rewritten — so there is nothing to preserve.
-/
import proofs.«100484_j70128226009669_2_alg».proof.Defs
import proofs.«100484_j70128226009669_2_alg».proof.Proof.Gen.Kernel
import proofs.«100484_j70128226009669_2_alg».proof.Proof.Gen.Kernel.Skeleton
import proofs.«100484_j70128226009669_2_alg».proof.Proof.Gen.Kernel.Launch
import proofs.«100484_j70128226009669_2_alg».proof.Proof.Gen.Kernel.Points
import proofs.«100484_j70128226009669_2_alg».proof.Proof.Gen.Kernel.Frame
import proofs.«100484_j70128226009669_2_alg».proof.Proof.Gen.KernelIdeal
import proofs.«100484_j70128226009669_2_alg».proof.Proof.Gen.KernelIdeal.Skeleton
import proofs.«100484_j70128226009669_2_alg».proof.Proof.Gen.KernelIdeal.Launch
import proofs.«100484_j70128226009669_2_alg».proof.Proof.Gen.KernelIdeal.Points
import proofs.«100484_j70128226009669_2_alg».proof.Proof.Gen.KernelIdeal.Frame
import proofs.«100484_j70128226009669_2_alg».proof.Proof.Gen.ReferenceIdeal
import proofs.«100484_j70128226009669_2_alg».proof.Proof.Gen.Pre_finite_inputs
import proofs.«100484_j70128226009669_2_alg».proof.Proof.Gen.KernelIdeal.Value
import proofs.«100484_j70128226009669_2_alg».proof.Proof.Gen.ReferenceIdeal.Run
import proofs.«100484_j70128226009669_2_alg».proof.Proof.Gen.ReferenceIdeal.Read
import proofs.«100484_j70128226009669_2_alg».proof.Proof.KernelArray
import proofs.«100484_j70128226009669_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its three arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's twelve operations run to the end and write none of the arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the three arguments both programs end with the result array at the one formula of
    those arguments: the kernel by its run read as a whole array, the reference by its run read entry by entry. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v10_eq]
  exact Cert.Bridge.ref_eq_loss _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
